-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512x512 : Shape := ⟨2, ![512, 512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S512x1024 .f32) (main_arg1 : FVec F S512x512 .f32) (main_arg2 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S1x1024 : Shape := ⟨2, ![1, 1024]⟩
abbrev S1x256 : Shape := ⟨2, ![1, 256]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S512x512, .f32⟩
  | .local _ .vmem, ⟨0, _⟩ => ⟨S512x1024, .f32⟩
  | .local _ .vmem, ⟨1, _⟩ => ⟨S512x256, .f32⟩
  | .local _ .vmem, ⟨2, _⟩ => ⟨S512x256, .f32⟩
  | .local _ .vmem, ⟨3, _⟩ => ⟨S256x1024, .f32⟩
  | .local _ .vmem, ⟨4, _⟩ => ⟨S256x1024, .f32⟩
  | .local _ .vmem, ⟨5, _⟩ => ⟨S512x256, .f32⟩
  | .local _ .vmem, ⟨6, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  inb_S512x256_S512x256_0_0 : ∀ a, (![0, 0] : Fin 2 → Nat) a + S512x256.size a ≤ S512x256.size a
  h_S512x256 : 0 < S512x256.numel
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  broadcasts_S1x256_S512x256 : S1x256.Broadcasts S512x256
  dot_S512x256_S512x1024_S256x1024_0_0_1_1_n_n_wf : DotDims.WF S512x256 S512x1024 S256x1024 [0] [0] [1] [1] [] []
  dot_S512x1024_S256x1024_S512x256_1_1_0_0_n_n_wf : DotDims.WF S512x1024 S256x1024 S512x256 [1] [1] [0] [0] [] []
  dot_S1x1024_S256x1024_S1x256_1_1_0_0_n_n_wf : DotDims.WF S1x1024 S256x1024 S1x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x512.size a
  hwx0_1 : ∀ i : grid0.Coords, EltTy.bits .f32 = 32 ∨ (Rect.block (s := S512x512) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x512.size a
  hwx0_3 : ∀ i : grid0.Coords, EltTy.bits .f32 = 32 ∨ (Rect.block (s := S512x512) S512x256.size (cc0_transform_3 i) (hinb0_3 i)).WholeWords (EltTy.packing .f32)

variable [Facts₀]

def dot_S512x256_S512x1024_S256x1024_0_0_1_1_n_n : DotDims S512x256 S512x1024 S256x1024 where
  lhsContracting := [0]
  rhsContracting := [0]
  lhsNonContracting := [1]
  rhsNonContracting := [1]
  lhsBatch := []
  rhsBatch := []
  wf := dot_S512x256_S512x1024_S256x1024_0_0_1_1_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S1x1024_S256x1024_S1x256_1_1_0_0_n_n : DotDims S1x1024 S256x1024 S1x256 where
  lhsContracting := [1]
  rhsContracting := [1]
  lhsNonContracting := [0]
  rhsNonContracting := [0]
  lhsBatch := []
  rhsBatch := []
  wf := dot_S1x1024_S256x1024_S1x256_1_1_0_0_n_n_wf

abbrev win0_0 : Pipeline.Window sig grid0 :=
  Pipeline.Window.ofSpec (Memref.whole main_arg0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1024 : Shape := ⟨2, ![512, 1024]⟩
abbrev S512x512 : Shape := ⟨2, ![512, 512]⟩
abbrev S_ : Shape := ⟨0, ![]⟩
abbrev S512x1x1024 : Shape := ⟨3, ![512, 1, 1024]⟩
abbrev S1x512x1024 : Shape := ⟨3, ![1, 512, 1024]⟩
abbrev S512x512x1024 : Shape := ⟨3, ![512, 512, 1024]⟩

abbrev nBuf : Space → Nat
  | .hbm => 27
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1x1024, .f32⟩
  | .hbm, ⟨17, _⟩ => ⟨S1x512x1024, .f32⟩
  | .hbm, ⟨18, _⟩ => ⟨S512x512x1024, .f32⟩
  | .hbm, ⟨19, _⟩ => ⟨S512x512x1024, .f32⟩
  | .hbm, ⟨20, _⟩ => ⟨S512x512x1024, .f32⟩
  | .hbm, ⟨21, _⟩ => ⟨S1x512x1024, .f32⟩
  | .hbm, ⟨22, _⟩ => ⟨S512x512x1024, .f32⟩
  | .hbm, ⟨23, _⟩ => ⟨S512x512x1024, .f32⟩
  | .hbm, ⟨24, _⟩ => ⟨S512x512x1024, .f32⟩
  | .hbm, ⟨25, _⟩ => ⟨S_, .f32⟩
  | .hbm, ⟨26, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  bcast_S512x1024_S512x1x1024_0_2 : S512x1024.BroadcastsInDim S512x1x1024 (![0, 2] : Fin 2 → Fin S512x1x1024.rank)
  bcast_S512x1024_S1x512x1024_1_2 : S512x1024.BroadcastsInDim S1x512x1024 (![1, 2] : Fin 2 → Fin S1x512x1024.rank)
  bcast_S512x1x1024_S512x512x1024_0_1_2 : S512x1x1024.BroadcastsInDim S512x512x1024 (![0, 1, 2] : Fin 3 → Fin S512x512x1024.rank)
  bcast_S1x512x1024_S512x512x1024_0_1_2 : S1x512x1024.BroadcastsInDim S512x512x1024 (![0, 1, 2] : Fin 3 → Fin S512x512x1024.rank)
  reducesTo_S512x512x1024_S512x512_d2 : S512x512x1024.ReducesTo [2] S512x512
  h_S_ : 0 < S_.numel
  dot_S512x512_S512x1024_S512x1024_0_0_1_1_n_n_wf : DotDims.WF S512x512 S512x1024 S512x1024 [0] [0] [1] [1] [] []

variable [Facts₀]

def dot_S512x512_S512x1024_S512x1024_0_0_1_1_n_n : DotDims S512x512 S512x1024 S512x1024 where
  lhsContracting := [0]
  rhsContracting := [0]
  lhsNonContracting := [1]
  rhsNonContracting := [1]
  lhsBatch := []
  rhsBatch := []
  wf := dot_S512x512_S512x1024_S512x1024_0_0_1_1_n_n_wf

class Facts : Prop extends Facts₀ where

variable [Facts]
-- ==== Proof.Products.lean ====
/-
  The kernel's three matrix products, each read at one entry as a plain sum.

  On the extended reals a matrix product into a zero tile is, at each entry, the sum over the contracted axis of the
  products of the two operands' entries: nothing of the matrix unit's chunking or rounding is left. The kernel contracts
  * the samples axis of a `[512, 256]` and a `[512, 1024]` operand (both first axes): entry `(q, d)` is `∑ b, l b q · r b d`;
  * the features axis of a `[512, 1024]` and a `[256, 1024]` operand (both second axes): entry `(p, q)` is
    `∑ d, l p d · r q d`;
  * the features axis of a `[1, 1024]` row and a `[256, 1024]` operand: entry `(0, q)` is `∑ d, l 0 d · r q d`.
  Each proof identifies the operands' indices at an output entry and a contraction position, coordinate by coordinate,
  and re-indexes the sum over the contraction shape's one axis by that axis's coordinate.
-/
import proofs.«136085_j33285996544551_2_alg».proof.Proof.Gen.KernelIdeal
import Idealize.ShloMosaic.Lib.ValueIdx
import Idealize.ShloMosaic.PureOps.Ideal.Laws

noncomputable section

open scoped BigOperators

namespace Cert.MaskedDist.Products

open Cert.KernelIdeal Cert.KernelIdeal.Gen Idealize.ShloMosaic Idealize.ShloMosaic.ValueIdx

/-! ### `dot_S512x256_S512x1024_S256x1024_0_0_1_1_n_n` -/

theorem samples_lhs_c (j : S256x1024.Idx) (s : dot_S512x256_S512x1024_S256x1024_0_0_1_1_n_n.contr.Idx) :
    (dot_S512x256_S512x1024_S256x1024_0_0_1_1_n_n.lhsIdx j s 0).val = (s ⟨0, by decide⟩).val :=
  dot_S512x256_S512x1024_S256x1024_0_0_1_1_n_n.lhsIdx_val_of_single rfl j s
theorem samples_lhs_n (j : S256x1024.Idx) (s : dot_S512x256_S512x1024_S256x1024_0_0_1_1_n_n.contr.Idx) :
    (dot_S512x256_S512x1024_S256x1024_0_0_1_1_n_n.lhsIdx j s 1).val = (j 0).val := by
  unfold DotDims.lhsIdx
  rw [dif_neg (show ¬(1 : Fin S512x256.rank) ∈ dot_S512x256_S512x1024_S256x1024_0_0_1_1_n_n.lhsBatch by decide), dif_pos (show (1 : Fin S512x256.rank) ∈ dot_S512x256_S512x1024_S256x1024_0_0_1_1_n_n.lhsNonContracting by decide)]
  rfl
theorem samples_rhs_c (j : S256x1024.Idx) (s : dot_S512x256_S512x1024_S256x1024_0_0_1_1_n_n.contr.Idx) :
    (dot_S512x256_S512x1024_S256x1024_0_0_1_1_n_n.rhsIdx j s 0).val = (s ⟨0, by decide⟩).val :=
  dot_S512x256_S512x1024_S256x1024_0_0_1_1_n_n.rhsIdx_val_of_single rfl j s
theorem samples_rhs_n (j : S256x1024.Idx) (s : dot_S512x256_S512x1024_S256x1024_0_0_1_1_n_n.contr.Idx) :
    (dot_S512x256_S512x1024_S256x1024_0_0_1_1_n_n.rhsIdx j s 1).val = (j 1).val := by
  unfold DotDims.rhsIdx
  rw [dif_neg (show ¬(1 : Fin S512x1024.rank) ∈ dot_S512x256_S512x1024_S256x1024_0_0_1_1_n_n.rhsBatch by decide), dif_pos (show (1 : Fin S512x1024.rank) ∈ dot_S512x256_S512x1024_S256x1024_0_0_1_1_n_n.rhsNonContracting by decide)]
  rfl

/-- Contracting the samples: entry `(q, d)` of the product is `∑ b, l b q · r b d`. -/
theorem samples_apply (l : FVec Ideal S512x256 .bf16) (r : FVec Ideal S512x1024 .bf16) (q : Fin 256) (d : Fin 1024) :
    matmul dot_S512x256_S512x1024_S256x1024_0_0_1_1_n_n none l r (constant S256x1024 .f32 0x00000000#32) (ix2 q d)
      = ∑ b : Fin 512, l (ix2 b q) * r (ix2 b d) := by
  simp only [matmul]
  rw [Ideal.matmul_constant_zero_apply, ← Equiv.sum_comp (contrEquiv1 dot_S512x256_S512x1024_S256x1024_0_0_1_1_n_n 512 rfl rfl).symm]
  refine Finset.sum_congr rfl fun b _ => ?_
  have hs := contrEquiv1_symm_val dot_S512x256_S512x1024_S256x1024_0_0_1_1_n_n 512 rfl rfl b
  have el : dot_S512x256_S512x1024_S256x1024_0_0_1_1_n_n.lhsIdx (ix2 q d) ((contrEquiv1 dot_S512x256_S512x1024_S256x1024_0_0_1_1_n_n 512 rfl rfl).symm b) = ix2 b q := funext fun a => Fin.ext (by
    match a with
    | ⟨0, _⟩ => exact (samples_lhs_c _ _).trans hs
    | ⟨1, _⟩ => exact samples_lhs_n _ _)
  have er : dot_S512x256_S512x1024_S256x1024_0_0_1_1_n_n.rhsIdx (ix2 q d) ((contrEquiv1 dot_S512x256_S512x1024_S256x1024_0_0_1_1_n_n 512 rfl rfl).symm b) = ix2 b d := funext fun a => Fin.ext (by
    match a with
    | ⟨0, _⟩ => exact (samples_rhs_c _ _).trans hs
    | ⟨1, _⟩ => exact samples_rhs_n _ _)
  rw [el, er]

/-! ### `dot_S512x1024_S256x1024_S512x256_1_1_0_0_n_n` -/

theorem features_lhs_c (j : S512x256.Idx) (s : dot_S512x1024_S256x1024_S512x256_1_1_0_0_n_n.contr.Idx) :
    (dot_S512x1024_S256x1024_S512x256_1_1_0_0_n_n.lhsIdx j s 1).val = (s ⟨0, by decide⟩).val :=
  dot_S512x1024_S256x1024_S512x256_1_1_0_0_n_n.lhsIdx_val_of_single rfl j s
theorem features_lhs_n (j : S512x256.Idx) (s : dot_S512x1024_S256x1024_S512x256_1_1_0_0_n_n.contr.Idx) :
    (dot_S512x1024_S256x1024_S512x256_1_1_0_0_n_n.lhsIdx j s 0).val = (j 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
theorem features_rhs_c (j : S512x256.Idx) (s : dot_S512x1024_S256x1024_S512x256_1_1_0_0_n_n.contr.Idx) :
    (dot_S512x1024_S256x1024_S512x256_1_1_0_0_n_n.rhsIdx j s 1).val = (s ⟨0, by decide⟩).val :=
  dot_S512x1024_S256x1024_S512x256_1_1_0_0_n_n.rhsIdx_val_of_single rfl j s
theorem features_rhs_n (j : S512x256.Idx) (s : dot_S512x1024_S256x1024_S512x256_1_1_0_0_n_n.contr.Idx) :
    (dot_S512x1024_S256x1024_S512x256_1_1_0_0_n_n.rhsIdx j s 0).val = (j 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl

/-- Contracting the features: entry `(p, q)` of the product is `∑ d, l p d · r q d`. -/
theorem features_apply (l : FVec Ideal S512x1024 .bf16) (r : FVec Ideal S256x1024 .bf16) (p : Fin 512) (q : Fin 256) :
    matmul dot_S512x1024_S256x1024_S512x256_1_1_0_0_n_n none l r (constant S512x256 .f32 0x00000000#32) (ix2 p q)
      = ∑ d : Fin 1024, l (ix2 p d) * r (ix2 q d) := by
  simp only [matmul]
  rw [Ideal.matmul_constant_zero_apply, ← Equiv.sum_comp (contrEquiv1 dot_S512x1024_S256x1024_S512x256_1_1_0_0_n_n 1024 rfl rfl).symm]
  refine Finset.sum_congr rfl fun d _ => ?_
  have hs := contrEquiv1_symm_val dot_S512x1024_S256x1024_S512x256_1_1_0_0_n_n 1024 rfl rfl d
  have el : dot_S512x1024_S256x1024_S512x256_1_1_0_0_n_n.lhsIdx (ix2 p q) ((contrEquiv1 dot_S512x1024_S256x1024_S512x256_1_1_0_0_n_n 1024 rfl rfl).symm d) = ix2 p d := funext fun a => Fin.ext (by
    match a with
    | ⟨1, _⟩ => exact (features_lhs_c _ _).trans hs
    | ⟨0, _⟩ => exact features_lhs_n _ _)
  have er : dot_S512x1024_S256x1024_S512x256_1_1_0_0_n_n.rhsIdx (ix2 p q) ((contrEquiv1 dot_S512x1024_S256x1024_S512x256_1_1_0_0_n_n 1024 rfl rfl).symm d) = ix2 q d := funext fun a => Fin.ext (by
    match a with
    | ⟨1, _⟩ => exact (features_rhs_c _ _).trans hs
    | ⟨0, _⟩ => exact features_rhs_n _ _)
  rw [el, er]

/-! ### `dot_S1x1024_S256x1024_S1x256_1_1_0_0_n_n` -/

theorem row_lhs_c (j : S1x256.Idx) (s : dot_S1x1024_S256x1024_S1x256_1_1_0_0_n_n.contr.Idx) :
    (dot_S1x1024_S256x1024_S1x256_1_1_0_0_n_n.lhsIdx j s 1).val = (s ⟨0, by decide⟩).val :=
  dot_S1x1024_S256x1024_S1x256_1_1_0_0_n_n.lhsIdx_val_of_single rfl j s
theorem row_lhs_n (j : S1x256.Idx) (s : dot_S1x1024_S256x1024_S1x256_1_1_0_0_n_n.contr.Idx) :
    (dot_S1x1024_S256x1024_S1x256_1_1_0_0_n_n.lhsIdx j s 0).val = (j 0).val := by
  unfold DotDims.lhsIdx
  rw [dif_neg (show ¬(0 : Fin S1x1024.rank) ∈ dot_S1x1024_S256x1024_S1x256_1_1_0_0_n_n.lhsBatch by decide), dif_pos (show (0 : Fin S1x1024.rank) ∈ dot_S1x1024_S256x1024_S1x256_1_1_0_0_n_n.lhsNonContracting by decide)]
  rfl
theorem row_rhs_c (j : S1x256.Idx) (s : dot_S1x1024_S256x1024_S1x256_1_1_0_0_n_n.contr.Idx) :
    (dot_S1x1024_S256x1024_S1x256_1_1_0_0_n_n.rhsIdx j s 1).val = (s ⟨0, by decide⟩).val :=
  dot_S1x1024_S256x1024_S1x256_1_1_0_0_n_n.rhsIdx_val_of_single rfl j s
theorem row_rhs_n (j : S1x256.Idx) (s : dot_S1x1024_S256x1024_S1x256_1_1_0_0_n_n.contr.Idx) :
    (dot_S1x1024_S256x1024_S1x256_1_1_0_0_n_n.rhsIdx j s 0).val = (j 1).val := by
  unfold DotDims.rhsIdx
  rw [dif_neg (show ¬(0 : Fin S256x1024.rank) ∈ dot_S1x1024_S256x1024_S1x256_1_1_0_0_n_n.rhsBatch by decide), dif_pos (show (0 : Fin S256x1024.rank) ∈ dot_S1x1024_S256x1024_S1x256_1_1_0_0_n_n.rhsNonContracting by decide)]
  rfl

/-- Contracting the features of one row: entry `(0, q)` of the product is `∑ d, l 0 d · r q d`. -/
theorem row_apply (l : FVec Ideal S1x1024 .bf16) (r : FVec Ideal S256x1024 .bf16) (q : Fin 256) :
    matmul dot_S1x1024_S256x1024_S1x256_1_1_0_0_n_n none l r (constant S1x256 .f32 0x00000000#32) (ix2 (0 : Fin 1) q)
      = ∑ d : Fin 1024, l (ix2 (0 : Fin 1) d) * r (ix2 q d) := by
  simp only [matmul]
  rw [Ideal.matmul_constant_zero_apply, ← Equiv.sum_comp (contrEquiv1 dot_S1x1024_S256x1024_S1x256_1_1_0_0_n_n 1024 rfl rfl).symm]
  refine Finset.sum_congr rfl fun d _ => ?_
  have hs := contrEquiv1_symm_val dot_S1x1024_S256x1024_S1x256_1_1_0_0_n_n 1024 rfl rfl d
  have el : dot_S1x1024_S256x1024_S1x256_1_1_0_0_n_n.lhsIdx (ix2 (0 : Fin 1) q) ((contrEquiv1 dot_S1x1024_S256x1024_S1x256_1_1_0_0_n_n 1024 rfl rfl).symm d) = ix2 (0 : Fin 1) d := funext fun a => Fin.ext (by
    match a with
    | ⟨1, _⟩ => exact (row_lhs_c _ _).trans hs
    | ⟨0, _⟩ => exact row_lhs_n _ _)
  have er : dot_S1x1024_S256x1024_S1x256_1_1_0_0_n_n.rhsIdx (ix2 (0 : Fin 1) q) ((contrEquiv1 dot_S1x1024_S256x1024_S1x256_1_1_0_0_n_n 1024 rfl rfl).symm d) = ix2 q d := funext fun a => Fin.ext (by
    match a with
    | ⟨1, _⟩ => exact (row_rhs_c _ _).trans hs
    | ⟨0, _⟩ => exact row_rhs_n _ _)
  rw [el, er]

end Cert.MaskedDist.Products

end
-- ==== Proof.Words.lean ====
/-
  The float words the two programs spell, as the extended reals they denote.

  The kernel scales the centroid sums by the word of 2⁻⁹ where the reference divides by the word of 512, doubles the
  cross term by the word of 2, and sums a row through a matrix product with a row of bf16 ones; both clip the mask
  weights between the words of 0 and 1. Each of these words is a dyadic rational, so it denotes exactly the number it
  spells.
-/
import Idealize.ShloMosaic.PureOps.Ideal
import Idealize.ShloMosaic.PureOps.Ideal.Laws

noncomputable section

namespace Cert.MaskedDist.Words

open Idealize.ShloMosaic

/-- The f32 word of `1.0` denotes `1`. -/
theorem one_f32 : Ideal.ofBits .f32 0x3F800000#32 = ((1 : ℝ) : EReal) := by
  simp [Ideal.ofBits, Ideal.ieee, -EReal.coe_mul]; norm_num

/-- The bf16 word of `1.0` denotes `1`. -/
theorem one_bf16 : Ideal.ofBits .bf16 0x3F80#16 = ((1 : ℝ) : EReal) := by
  simp [Ideal.ofBits, Ideal.ieee, -EReal.coe_mul]; norm_num

/-- The f32 word of `2.0` denotes `2`. -/
theorem two_f32 : Ideal.ofBits .f32 0x40000000#32 = ((2 : ℝ) : EReal) := by
  simp [Ideal.ofBits, Ideal.ieee, -EReal.coe_mul]; norm_num

/-- The f32 word of `512.0` denotes `512`. -/
theorem n512_f32 : Ideal.ofBits .f32 0x44000000#32 = ((512 : ℝ) : EReal) := by
  simp [Ideal.ofBits, Ideal.ieee, -EReal.coe_mul]; norm_num

/-- The f32 word of `0.001953125` denotes `1/512` exactly: it is the power of two 2⁻⁹. -/
theorem inv512_f32 : Ideal.ofBits .f32 0x3B000000#32 = ((1 / 512 : ℝ) : EReal) := by
  simp [Ideal.ofBits, Ideal.ieee, -EReal.coe_mul]; norm_num

/-- The f32 word of `0.0` denotes `0`. -/
theorem zero_f32 : Ideal.ofBits .f32 0x00000000#32 = ((0 : ℝ) : EReal) := by
  rw [Ideal.ofBits_zero_f32, EReal.coe_zero]

end Cert.MaskedDist.Words

end
-- ==== Proof.Distance.lean ====
/-
  The masked squared distance to the centroids, written twice, and the law that makes the two writings one.

  From a data matrix `X` (512 samples by 1024 features), assignment weights `U` (512 samples by 512 centroids) and mask
  weights `M` (512 centroids by 1024 features):
  * centroid `k` is the `U`-weighted sum of the samples divided by 512, `c k d = (∑ b, U b k · X b d) / 512`;
  * the hard mask `μ k d` is the mask weight clipped to `[0, 1]` and rounded to the nearest integer, ties to even;
  * the result at `(b, k)` is the squared distance from sample `b` to centroid `k` over the masked features,
    `∑ d, ((X b d − c k d) · μ k d)²`.

  The formulas are stated for any number `K` of centroids, because the distance to centroid `k` reads only column `k` of `U`
  and row `k` of `M`: computed on a sub-family of consecutive centroids it is the same number (`expandedAt_sub`).

  `direct` is that sum as it stands. `expanded` multiplies the square out before summing,
  `∑ d, X b d² · μ² − 2 · ∑ d, X b d · (μ² · c) + ∑ d, 1 · (μ² · c²)`, with the centroid scaled by `1/512` instead of divided
  by `512`, and clamps the result at zero from below.

  On the extended reals the two are different functions: multiplying the square out is distributivity, which fails at an
  infinity. Where every entry of `X` and of `U` is a real number they agree: the centroid is then a real, the hard mask is
  a real whatever its weight is (clipping brings even an infinite weight into `[0, 1]`), the expansion is the binomial
  square term by term, and a sum of squares is never below zero, so the clamp changes nothing.
-/
import Idealize.ShloMosaic.PureOps.Ideal
import Idealize.ShloMosaic.Lib.ValueIdx
import proofs.«136085_j33285996544551_2_alg».proof.Proof.Words

noncomputable section

open scoped BigOperators

namespace Cert.MaskedDist

open Idealize.ShloMosaic Idealize.ShloMosaic.ValueIdx

/-! ## The two writings -/

/-- The weighted sum of the samples that centroid `k` is a multiple of, at feature `d`. -/
def wsum {K : Nat} (X : (⟨2, ![512, 1024]⟩ : Shape).Idx → EReal) (U : (⟨2, ![512, K]⟩ : Shape).Idx → EReal)
    (k : Fin K) (d : Fin 1024) : EReal :=
  ∑ b : Fin 512, U (ix2 b k) * X (ix2 b d)

/-- The hard mask of one weight: clipped between the words of `0` and `1`, then rounded, ties to even. -/
def hardMask (w : EReal) : EReal :=
  Ideal.liftRound Ideal.roundHalfEven
    (min (Ideal.ofBits .f32 0x3F800000#32) (max (Ideal.ofBits .f32 0x00000000#32) w))

/-- The masked squared distance from sample `b` to centroid `k`, summed feature by feature, the centroid a quotient by
    the word of `512`. -/
def directAt {K : Nat} (X : (⟨2, ![512, 1024]⟩ : Shape).Idx → EReal) (U : (⟨2, ![512, K]⟩ : Shape).Idx → EReal)
    (M : (⟨2, ![K, 1024]⟩ : Shape).Idx → EReal) (b : Fin 512) (k : Fin K) : EReal :=
  Ideal.ofBits .f32 0x00000000#32 + ∑ d : Fin 1024,
    ((X (ix2 b d) - Ideal.div (wsum X U k d) (Ideal.ofBits .f32 0x44000000#32)) * hardMask (M (ix2 k d)))
      * ((X (ix2 b d) - Ideal.div (wsum X U k d) (Ideal.ofBits .f32 0x44000000#32)) * hardMask (M (ix2 k d)))

/-- The whole `[512, 512]` array of those distances, sample by centroid. -/
def direct (X : (⟨2, ![512, 1024]⟩ : Shape).Idx → EReal) (U : (⟨2, ![512, 512]⟩ : Shape).Idx → EReal)
    (M : (⟨2, ![512, 1024]⟩ : Shape).Idx → EReal) : (⟨2, ![512, 512]⟩ : Shape).Idx → EReal :=
  fun j => directAt X U M (j 0) (j 1)

/-- The same distance with the square multiplied out into three sums, the centroid a product with the word of `2⁻⁹`,
    clamped at the word of `0` from below. -/
def expandedAt {K : Nat} (X : (⟨2, ![512, 1024]⟩ : Shape).Idx → EReal) (U : (⟨2, ![512, K]⟩ : Shape).Idx → EReal)
    (M : (⟨2, ![K, 1024]⟩ : Shape).Idx → EReal) (b : Fin 512) (k : Fin K) : EReal :=
  max
    ((∑ d : Fin 1024, (X (ix2 b d) * X (ix2 b d)) * (hardMask (M (ix2 k d)) * hardMask (M (ix2 k d))))
      - Ideal.ofBits .f32 0x40000000#32
          * (∑ d : Fin 1024, X (ix2 b d)
              * ((hardMask (M (ix2 k d)) * hardMask (M (ix2 k d)))
                  * (wsum X U k d * Ideal.ofBits .f32 0x3B000000#32)))
      + ∑ d : Fin 1024, Ideal.ofBits .bf16 0x3F80#16
          * ((hardMask (M (ix2 k d)) * hardMask (M (ix2 k d)))
              * ((wsum X U k d * Ideal.ofBits .f32 0x3B000000#32) * (wsum X U k d * Ideal.ofBits .f32 0x3B000000#32))))
    (Ideal.ofBits .f32 0x00000000#32)

/-- The whole `[512, 512]` array in the expanded writing. -/
def expanded (X : (⟨2, ![512, 1024]⟩ : Shape).Idx → EReal) (U : (⟨2, ![512, 512]⟩ : Shape).Idx → EReal)
    (M : (⟨2, ![512, 1024]⟩ : Shape).Idx → EReal) : (⟨2, ![512, 512]⟩ : Shape).Idx → EReal :=
  fun j => expandedAt X U M (j 0) (j 1)

/-- The expanded distance to a centroid reads only that centroid's column of `U` and row of `M`: computed from the same
    data on another family whose centroid `q` has the same column and row as centroid `k` here, it is the same. -/
theorem expandedAt_sub {K K' : Nat} (X X' : (⟨2, ![512, 1024]⟩ : Shape).Idx → EReal)
    (U : (⟨2, ![512, K]⟩ : Shape).Idx → EReal) (M : (⟨2, ![K, 1024]⟩ : Shape).Idx → EReal)
    (U' : (⟨2, ![512, K']⟩ : Shape).Idx → EReal) (M' : (⟨2, ![K', 1024]⟩ : Shape).Idx → EReal) (k : Fin K) (q : Fin K')
    (hX : ∀ (b : Fin 512) (d : Fin 1024), X' (ix2 b d) = X (ix2 b d))
    (hU : ∀ b : Fin 512, U' (ix2 b q) = U (ix2 b k)) (hM : ∀ d : Fin 1024, M' (ix2 q d) = M (ix2 k d)) (b : Fin 512) :
    expandedAt X' U' M' b q = expandedAt X U M b k := by
  unfold expandedAt wsum
  simp only [hX, hU, hM]

/-! ## The law -/

/-- The real numbers sit in the extended reals additively, so a finite sum of reals is the sum there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The binomial square, summed: over the reals the three sums of the expansion add up to the sum of the squares. -/
theorem sum_sq_expand {ι : Type*} (s : Finset ι) (x c m : ι → ℝ) :
    (∑ d ∈ s, (x d * x d) * (m d * m d)) - 2 * (∑ d ∈ s, x d * ((m d * m d) * c d))
        + ∑ d ∈ s, 1 * ((m d * m d) * (c d * c d))
      = ∑ d ∈ s, ((x d - c d) * m d) * ((x d - c d) * m d) := by
  rw [Finset.mul_sum, ← Finset.sum_sub_distrib, ← Finset.sum_add_distrib]
  exact Finset.sum_congr rfl fun d _ => by ring

/-- The hard mask is a real number at every weight, an infinite one included: below the clip's floor it is the
    rounding of `0`, above its ceiling the rounding of `1`. -/
theorem hardMask_real (w : EReal) : ∃ r : ℝ, hardMask w = (r : EReal) := by
  unfold hardMask
  rw [Words.one_f32, Words.zero_f32]
  induction w using EReal.rec with
  | bot => rw [max_eq_left bot_le, ← EReal.coe_strictMono.monotone.map_min]; exact ⟨_, rfl⟩
  | top => rw [max_eq_right le_top, min_eq_left le_top]; exact ⟨_, rfl⟩
  | coe r =>
    rw [← EReal.coe_strictMono.monotone.map_max, ← EReal.coe_strictMono.monotone.map_min]; exact ⟨_, rfl⟩

/-- Where the data and the assignment weights are real numbers, the expanded writing is the direct one, sample by
    centroid. -/
theorem expandedAt_eq_directAt {K : Nat} (X : (⟨2, ![512, 1024]⟩ : Shape).Idx → EReal) (U : (⟨2, ![512, K]⟩ : Shape).Idx → EReal)
    (M : (⟨2, ![K, 1024]⟩ : Shape).Idx → EReal)
    (hX : ∀ i, ∃ r : ℝ, X i = (r : EReal)) (hU : ∀ i, ∃ r : ℝ, U i = (r : EReal)) (b : Fin 512) (k : Fin K) :
    expandedAt X U M b k = directAt X U M b k := by
  choose x hx using hX
  choose u hu using hU
  choose μ hμ using hardMask_real
  have hs : ∀ (k : Fin K) (d : Fin 1024), wsum X U k d = ((∑ b : Fin 512, u (ix2 b k) * x (ix2 b d) : ℝ) : EReal) := fun k d => by
    unfold wsum
    rw [coe_sum]
    exact Finset.sum_congr rfl fun b _ => by rw [hu, hx, EReal.coe_mul]
  unfold expandedAt directAt
  simp only [hs, hx, hμ, Words.two_f32, Words.inv512_f32, Words.one_bf16, Words.zero_f32, Words.n512_f32,
    Ideal.div_coe (by norm_num : (512 : ℝ) ≠ 0), ← EReal.coe_mul, ← EReal.coe_sub, ← coe_sum, ← EReal.coe_add]
  have law := sum_sq_expand Finset.univ (fun d : Fin 1024 => x (ix2 b d))
    (fun d : Fin 1024 => (∑ b' : Fin 512, u (ix2 b' k) * x (ix2 b' d)) * (1 / 512)) (fun d : Fin 1024 => μ (M (ix2 k d)))
  beta_reduce at law
  rw [law, zero_add]
  exact max_eq_left (EReal.coe_le_coe_iff.mpr (Finset.sum_nonneg fun d _ => mul_self_nonneg _))

/-- So the two whole arrays are equal there. -/
theorem expanded_eq_direct (X : (⟨2, ![512, 1024]⟩ : Shape).Idx → EReal) (U : (⟨2, ![512, 512]⟩ : Shape).Idx → EReal)
    (M : (⟨2, ![512, 1024]⟩ : Shape).Idx → EReal)
    (hX : ∀ i, ∃ r : ℝ, X i = (r : EReal)) (hU : ∀ i, ∃ r : ℝ, U i = (r : EReal)) :
    expanded X U M = direct X U M :=
  funext fun j => expandedAt_eq_directAt X U M hX hU (j 0) (j 1)

end Cert.MaskedDist

end
-- ==== Proof.Block.lean ====
/-
  What the kernel body computes from its three blocks.

  At a grid point the body loads the whole data matrix, 256 columns of the assignment weights and the matching 256 rows of
  the mask weights. Read at the entry `(p, q)` of its `[512, 256]` result it is the expanded masked squared distance from
  sample `p` to centroid `q` of that sub-family of 256 centroids: the centroid sums come from the product contracting the
  samples, scaled by the word of `2⁻⁹`; the three sums over the features come from the two products with the squared hard
  mask and from the product of a row of ones with the masked squared centroids, whose one row is broadcast over the
  samples; the roundings to bf16 on the way into a product are the identity on the extended reals.
-/
import proofs.«136085_j33285996544551_2_alg».proof.Proof.Gen.KernelIdeal.Skeleton
import proofs.«136085_j33285996544551_2_alg».proof.Proof.Products
import proofs.«136085_j33285996544551_2_alg».proof.Proof.Distance
import Idealize.ShloMosaic.Lib.ValueLayout

noncomputable section

open scoped BigOperators

namespace Cert.MaskedDist.Block

open Cert.KernelIdeal Cert.KernelIdeal.Gen Idealize.ShloMosaic Idealize.ShloMosaic.ValueIdx Cert.MaskedDist.Products

/-- Rounding to the nearest integer, ties to even, entry by entry. -/
theorem roundeven_apply {s : Shape} {φ : FTy} (a : FVec Ideal s φ) (i : s.Idx) :
    roundeven a i = Ideal.liftRound Ideal.roundHalfEven (a i) := rfl

/-- The body's result at `(p, q)` is the expanded distance from sample `p` to centroid `q` of the 256 loaded. -/
theorem payload_at (v0 : FVec Ideal S512x1024 .f32) (v1 : FVec Ideal S512x256 .f32) (v2 : FVec Ideal S256x1024 .f32)
    (p : Fin 512) (q : Fin 256) :
    k0_pay1 (F := Ideal) v0 v1 v2 (ix2 p q) = expandedAt v0 v1 v2 p q := by
  unfold k0_pay1
  simp only [maximumf_apply, addf_apply, subf_apply, mulf_apply, minimumf_apply, truncf_apply, broadcast_apply,
    roundeven_apply, features_apply, row_apply, samples_apply, broadcastTo_1b_ab_apply]
  unfold expandedAt wsum hardMask
  rfl

end Cert.MaskedDist.Block

end
-- ==== Proof.KernelValue.lean ====
/-
  The array the kernel leaves: the expanded masked squared distance, whole.

  The grid has two points. Point `t` stages the whole data matrix, columns `256 t … 256 t + 255` of the assignment weights
  and rows `256 t … 256 t + 255` of the mask weights, and writes back columns `256 t … 256 t + 255` of the result. What it
  writes at `(p, q)` of its block is the expanded distance from sample `p` to centroid `q` of the 256 it staged, which is
  centroid `256 t + q` of the whole family: so its block is the block of one function of the three argument arrays, the
  expanded distance sample by centroid. The two points' blocks cover the `[512, 512]` result (column `k` lies in the block
  of point `k / 256`), so after the run the result array is that function.
-/
import proofs.«136085_j33285996544551_2_alg».proof.Proof.Gen.KernelIdeal.Value
import proofs.«136085_j33285996544551_2_alg».proof.Proof.Block
import Idealize.ShloMosaic.Lib.Pipeline.Value

noncomputable section

namespace Cert.MaskedDist.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the two grid points: the data block never moves; the weight columns, the mask rows
    and the result columns move with the point. -/
theorem index_maps : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The result as one function of the argument arrays as the kernel's launch finds them. -/
abbrev result (c : Dev nD) : S512x512.Idx → EReal :=
  expanded (V m c main_arg0) (V m c main_arg1) (V m c main_arg2)

/-- One point's value, over plain arrays: blocks that are the whole data, 256 columns of the weights from column `256 T` and
    the matching rows of the mask give, at `(p, q)`, the whole family's expanded distance at `(p, 256 T + q)`. -/
theorem point_value (X : S512x1024.Idx → EReal) (U : S512x512.Idx → EReal) (M : S512x1024.Idx → EReal)
    (x0 : FVec Ideal S512x1024 .f32) (x1 : FVec Ideal S512x256 .f32) (x2 : FVec Ideal S256x1024 .f32) (T : Nat)
    (h0 : ∀ (b : Fin 512) (d : Fin 1024), x0 (ix2 b d) = X (ix2 b d))
    (h1 : ∀ (b : Fin 512) (q : Fin 256) (k : Fin 512), k.val = T * 256 + q.val → x1 (ix2 b q) = U (ix2 b k))
    (h2 : ∀ (q : Fin 256) (d : Fin 1024) (k : Fin 512), k.val = T * 256 + q.val → x2 (ix2 q d) = M (ix2 k d))
    (y : S512x256.Idx) (i : S512x512.Idx) (hi0 : (i 0).val = (y 0).val) (hi1 : (i 1).val = T * 256 + (y 1).val) :
    k0_pay1 (F := Ideal) x0 x1 x2 y = expanded X U M i := by
  obtain ⟨p, q, rfl⟩ : ∃ (p : Fin 512) (q : Fin 256), y = ix2 p q := ⟨y 0, y 1, eq_ix2 y⟩
  obtain ⟨b, k, rfl⟩ : ∃ (b : Fin 512) (k : Fin 512), i = ix2 b k := ⟨i 0, i 1, eq_ix2 i⟩
  obtain rfl : b = p := Fin.ext hi0
  show _ = expandedAt X U M b k
  rw [Block.payload_at]
  exact expandedAt_sub X x0 U M x1 x2 k q h0 (fun s => h1 s q k hi1) (fun d => h2 q d k hi1) b

/-- The data window's block at any point is the whole data matrix. -/
theorem data_block (c : Dev nD) (t : Fin cfg0.N) (b : Fin 512) (d : Fin 1024) :
    (iblk m c 0 t : FVec Ideal S512x1024 .f32) (ix2 b d) = (V m c main_arg0 : S512x1024.Idx → EReal) (ix2 b d) := by
  obtain ⟨e0, e1, -⟩ := index_maps t
  unfold iblk
  rw [View.read_apply]
  show (V m c main_arg0 : S512x1024.Idx → EReal) (((cfg0.win 0).blk t).view.emb (ix2 b d)) = _
  have h : ((cfg0.win 0).blk t).view.emb (ix2 b d) = ix2 b d := by
    funext a; apply Fin.ext
    match a with
    | ⟨0, _⟩ => show win0_0.index t (0 : Fin 2) * 512 + 1 * b.val = b.val; omega
    | ⟨1, _⟩ => show win0_0.index t (1 : Fin 2) * 1024 + 1 * d.val = d.val; omega
  rw [h]

/-- The weight window's block at point `t` is columns `256 t … 256 t + 255` of the assignment weights. -/
theorem weight_block (c : Dev nD) (t : Fin cfg0.N) (b : Fin 512) (q : Fin 256) (k : Fin 512) (hk : k.val = t.val * 256 + q.val) :
    (iblk m c 1 t : FVec Ideal S512x256 .f32) (ix2 b q) = (V m c main_arg1 : S512x512.Idx → EReal) (ix2 b k) := by
  obtain ⟨-, -, e0, e1, -⟩ := index_maps t
  unfold iblk
  rw [View.read_apply]
  show (V m c main_arg1 : S512x512.Idx → EReal) (((cfg0.win 1).blk t).view.emb (ix2 b q)) = _
  have h : ((cfg0.win 1).blk t).view.emb (ix2 b q) = ix2 b k := by
    funext a; apply Fin.ext
    match a with
    | ⟨0, _⟩ => show win0_1.index t (0 : Fin 2) * 512 + 1 * b.val = b.val; omega
    | ⟨1, _⟩ => show win0_1.index t (1 : Fin 2) * 256 + 1 * q.val = k.val; omega
  rw [h]

/-- The mask window's block at point `t` is rows `256 t … 256 t + 255` of the mask weights. -/
theorem mask_block (c : Dev nD) (t : Fin cfg0.N) (q : Fin 256) (d : Fin 1024) (k : Fin 512) (hk : k.val = t.val * 256 + q.val) :
    (iblk m c 2 t : FVec Ideal S256x1024 .f32) (ix2 q d) = (V m c main_arg2 : S512x1024.Idx → EReal) (ix2 k d) := by
  obtain ⟨-, -, -, -, e0, e1, -⟩ := index_maps t
  unfold iblk
  rw [View.read_apply]
  show (V m c main_arg2 : S512x1024.Idx → EReal) (((cfg0.win 2).blk t).view.emb (ix2 q d)) = _
  have h : ((cfg0.win 2).blk t).view.emb (ix2 q d) = ix2 k d := by
    funext a; apply Fin.ext
    match a with
    | ⟨0, _⟩ => show win0_2.index t (0 : Fin 2) * 256 + 1 * q.val = k.val; omega
    | ⟨1, _⟩ => show win0_2.index t (1 : Fin 2) * 1024 + 1 * d.val = d.val; omega
  rw [h]

/-- What point `t` writes back is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S512x1024) zero_offsets, View.ld_unit_zero (S := S512x256) zero_offsets,
    View.ld_unit_zero (S := S256x1024) zero_offsets]
  obtain ⟨-, -, -, -, -, -, e0, e1⟩ := index_maps t
  funext j
  rw [View.read_apply]
  show k0_pay1 (F := Ideal) (iblk m c 0 t) (iblk m c 1 t) (iblk m c 2 t) j = result m c (((cfg0.win 3).blk t).view.emb j)
  refine point_value (V m c main_arg0) (V m c main_arg1) (V m c main_arg2) (iblk m c 0 t) (iblk m c 1 t) (iblk m c 2 t) t.val
    (data_block m c t) (weight_block m c t) (mask_block m c t) j (((cfg0.win 3).blk t).view.emb j) ?_ ?_
  · show win0_3.index t (0 : Fin 2) * 512 + 1 * (j 0).val = (j 0).val; omega
  · show win0_3.index t (1 : Fin 2) * 256 + 1 * (j 1).val = t.val * 256 + (j 1).val; omega

/-- An index of the result is in point `t`'s block iff each coordinate is in the block's range on its axis. -/
theorem mem_block (t : Fin cfg0.N) (i : S512x512.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Every entry of the result is written: column `k` lies in the block of point `k / 256`. -/
theorem covered (i : S512x512.Idx) : ∃ t : Fin cfg0.N, (cfg0.win 3).flush t = true ∧ i ∈ ((cfg0.win 3).blk t).view.set := by
  have hi0 : (i 0).val < 512 := (i 0).isLt
  have hi1 : (i 1).val < 512 := (i 1).isLt
  refine ⟨⟨(i 1).val / 256, by show (i 1).val / 256 < 2; omega⟩, flush0_3 _, ?_⟩
  obtain ⟨-, -, -, -, -, -, e0, e1⟩ := index_maps ⟨(i 1).val / 256, by show (i 1).val / 256 < 2; omega⟩
  rw [mem_block]
  intro a
  match a with
  | ⟨0, _⟩ =>
    show win0_3.index _ (0 : Fin 2) * 512 ≤ (i 0).val ∧ (i 0).val < win0_3.index _ (0 : Fin 2) * 512 + 512
    rw [e0]; omega
  | ⟨1, _⟩ =>
    show win0_3.index _ (1 : Fin 2) * 256 ≤ (i 1).val ∧ (i 1).val < win0_3.index _ (1 : Fin 2) * 256 + 256
    rw [e1]; show (i 1).val / 256 * 256 ≤ (i 1).val ∧ (i 1).val < (i 1).val / 256 * 256 + 256; omega

/-- The two blocks cover the array, so after the run it is `result`. -/
theorem final (c : Dev nD) : (dats m 0 c).arrAt 3 cfg0.N = result m c :=
  (dats m 0 c).arrAt_eq_of_cover 3 (result m c) (fun t _ => flushed_eq m c t) covered

/-- The run, read: the result array ends at the expanded distance of the argument arrays, the arguments unchanged. -/
theorem run : θ_run defs (onTc (τ := τ) (main (F := Ideal))) ⟨m, fun _ => 0, ρ⟩ fun r => ∀ c : Dev nD,
      r.2.mem ((c : Thread nD τ).loc main_v0)
        = expanded (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.MaskedDist.Ker

end
-- ==== Proof.RefDirect.lean ====
/-
  The reference computes the masked squared distance as it stands.

  Read one operation at a time, its result at `(b, k)` is the word of `0` plus the sum over the features `d` of the square of
  `(X b d − c k d) · μ k d`: the broadcasts to `[512, 512, 1024]` only select which entry of `X`, of the centroid and of the
  hard mask meets at `(b, k, d)`; the centroid is the contraction of `U` and `X` over the samples, divided by the word of
  `512`; the clip and the rounding are the hard mask.
-/
import proofs.«136085_j33285996544551_2_alg».proof.Proof.Gen.ReferenceIdeal.Read
import proofs.«136085_j33285996544551_2_alg».proof.Proof.Distance

noncomputable section

open scoped BigOperators

namespace Cert.MaskedDist.Ref

open Cert.ReferenceIdeal Cert.ReferenceIdeal.Read Idealize.ShloMosaic Idealize.ShloMosaic.ValueIdx

/-- The difference of the broadcast data and the broadcast centroid at `(b, k, d)` is `X b d − c k d`. -/
theorem diff_at (x0 : (⟨S512x1024, .f32⟩ : BufTy).Contents (Elt Ideal)) (x1 : (⟨S512x512, .f32⟩ : BufTy).Contents (Elt Ideal))
    (b k : Fin 512) (d : Fin 1024) :
    val_main_v9 (F := Ideal) x0 x1 (ix3 b k d)
      = x0 (ix2 b d) - Ideal.div (wsum x0 x1 k d) (Ideal.ofBits .f32 0x44000000#32) := by
  rw [val_main_v9_apply, val_main_v7_apply, val_main_v5_apply, val_main_v8_apply, val_main_v6_apply, val_main_v2_apply,
    val_main_v0_apply, val_main_v1_apply, val_main_cst_apply]
  have e1 : idx_main_v5 (idx_main_v7 (ix3 b k d)) = ix2 b d :=
    funext fun a => by match a with | ⟨0, _⟩ => rfl | ⟨1, _⟩ => rfl
  have e2 : ∀ s : Fin 512, lidx_main_v0 (idx_main_v6 (idx_main_v8 (ix3 b k d))) s = ix2 s k := fun s =>
    funext fun a => by match a with | ⟨0, _⟩ => rfl | ⟨1, _⟩ => rfl
  have e3 : ∀ s : Fin 512, ridx_main_v0 (idx_main_v6 (idx_main_v8 (ix3 b k d))) s = ix2 s d := fun s =>
    funext fun a => by match a with | ⟨0, _⟩ => rfl | ⟨1, _⟩ => rfl
  rw [e1]
  simp only [e2, e3]
  rfl

/-- The broadcast hard mask at `(b, k, d)` is the hard mask of the weight `M k d`. -/
theorem mask_at (x2 : (⟨S512x1024, .f32⟩ : BufTy).Contents (Elt Ideal)) (b k : Fin 512) (d : Fin 1024) :
    val_main_v11 (F := Ideal) x2 (ix3 b k d) = hardMask (x2 (ix2 k d)) := by
  rw [val_main_v11_apply, val_main_v10_apply, val_main_v4_apply, val_main_v3_apply, val_main_call0_v4_apply,
    val_main_call0_v3_apply, val_main_cst_1_apply, val_main_call0_v2_apply, val_main_call0_v1_apply,
    val_main_call0_v0_apply, val_main_cst_0_apply]
  have e : idx_main_v10 (idx_main_v11 (ix3 b k d)) = ix2 k d :=
    funext fun a => by match a with | ⟨0, _⟩ => rfl | ⟨1, _⟩ => rfl
  rw [e]
  rfl

/-- The reference's result is the direct writing of the masked squared distance. -/
theorem reference_eq_direct (x0 : (⟨S512x1024, .f32⟩ : BufTy).Contents (Elt Ideal))
    (x1 : (⟨S512x512, .f32⟩ : BufTy).Contents (Elt Ideal)) (x2 : (⟨S512x1024, .f32⟩ : BufTy).Contents (Elt Ideal)) :
    val_main_v14 (F := Ideal) x0 x1 x2 = direct x0 x1 x2 := by
  funext i
  obtain ⟨b, k, rfl⟩ : ∃ (b : Fin 512) (k : Fin 512), i = ix2 b k := ⟨i 0, i 1, eq_ix2 i⟩
  rw [val_main_v14_apply]
  show _ = directAt x0 x1 x2 b k
  unfold directAt
  refine congrArg₂ (· + ·) rfl (Finset.sum_congr rfl fun d _ => ?_)
  have e : idx_main_v14 (ix2 b k) d = ix3 b k d :=
    funext fun a => by match a with | ⟨0, _⟩ => rfl | ⟨1, _⟩ => rfl | ⟨2, _⟩ => rfl
  rw [e, val_main_v13_apply, val_main_v12_apply, diff_at, mask_at]
  rfl

end Cert.MaskedDist.Ref

end
-- ==== Proof.Finite.lean ====
/-
  What the precondition says of the data and the assignment weights.

  The precondition is the conjunction, over the three argument arrays, of "every entry's absolute value is below the word of
  `+∞`". On the extended reals the absolute value `max x (−x)` is `+∞` at both infinities, and that word denotes `+∞`: so an
  entry that passes the comparison is a real number. The conjunction is a one-bit `and`, each `jnp.all` a reduction by `and`
  over every axis into a result of one index, which is `1` only if every compared entry gave `1`.
-/
import proofs.«136085_j33285996544551_2_alg».proof.Pre_finite_inputs
import Idealize.ShloMosaic.Lib.ReduceAll
import Idealize.ShloMosaic.Lib.ValueIdx
import Idealize.ShloMosaic.PureOps.Ideal.Laws

noncomputable section

namespace Cert.MaskedDist.Finite

open Idealize.ShloMosaic Cert.Pre_finite_inputs

variable [Facts]
open Facts

instance : Subsingleton S_.Idx := ⟨fun a b => funext fun d => d.elim0⟩

/-- The f32 word with all exponent bits set and no fraction denotes `+∞`. -/
theorem inf_f32 : Ideal.ofBits .f32 0x7F800000#32 = ⊤ := by
  simp [Ideal.ofBits, Ideal.ieee]

/-- An extended real whose absolute value compares below the word of `+∞` is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h1 : Ideal.cmp .olt (max x (-x)) (Ideal.ofBits .f32 0x7F800000#32) = 1#1 := h
  rw [inf_f32] at h1
  have h2 : max x (-x) < ⊤ := by
    by_contra hc
    simp [Ideal.cmp, hc] at h1
  induction x using EReal.rec with
  | bot => simp at h2
  | top => simp at h2
  | coe r => exact ⟨r, rfl⟩

/-- Under the precondition every entry of the data matrix and of the assignment weights is a real number. -/
theorem real_inputs (X : FVec Ideal S512x1024 .f32) (U : FVec Ideal S512x512 .f32) (M : FVec Ideal S512x1024 .f32)
    (h : fn (F := Ideal) X U M = fun _ => 1#1) :
    (∀ i, ∃ r : ℝ, X i = (r : EReal)) ∧ (∀ i, ∃ r : ℝ, U i = (r : EReal)) := by
  have h0 := congrFun h ValueIdx.ix0
  dsimp only [fn] at h0
  obtain ⟨h01, -⟩ := IntOp.andi_eq_one.1 h0
  obtain ⟨hA, hB⟩ := IntOp.andi_eq_one.1 h01
  refine ⟨fun i => real_of_abs_lt_inf (X i) ?_, fun i => real_of_abs_lt_inf (U i) ?_⟩
  · exact Host.reduce_andi_all _ _ _ _ ValueIdx.ix0 hA i
  · exact Host.reduce_andi_all _ _ _ _ ValueIdx.ix0 hB i

end Cert.MaskedDist.Finite

end
-- ==== Proof.lean ====
/-
  A kernel for the masked squared distance from 512 samples to 512 centroids, against its plain reference, on the extended
  reals.

  Both programs take a data matrix `X` (512 by 1024), assignment weights `U` (512 by 512) and mask weights `M` (512 by 1024).
  Centroid `k` is `c k d = (∑ b, U b k · X b d) / 512`, the hard mask `μ k d` is `M k d` clipped to `[0, 1]` and rounded to the
  nearest integer, and the result at `(b, k)` is `∑ d, ((X b d − c k d) · μ k d)²`.

  The reference computes that sum as it stands (Proof/RefDirect.lean). The kernel, on a grid of two points that each
  handle 256 centroids, multiplies the square out and gets the three sums `∑ X² μ²`, `∑ X (μ² c)`, `∑ 1 · (μ² c²)` from matrix
  products, scales by `2⁻⁹` instead of dividing by 512, and clamps `term₁ − 2 · term₂ + term₃` at zero (Proof/Products.lean,
  Proof/Block.lean, Proof/KernelValue.lean: its result array is the expanded writing of Proof/Distance.lean).

  The two writings are different functions on the extended reals, since multiplying a square out fails at an infinity. Under
  the precondition every entry of `X` and `U` is a real number (Proof/Finite.lean); then the centroid is a real, the hard mask
  is a real whatever `M` holds, the word of `2⁻⁹` is exactly `1/512` (Proof/Words.lean), the expansion is the binomial square
  term by term, and a sum of squares is not below zero, so the clamp is the identity (Proof/Distance.lean,
  `expanded_eq_direct`). The three frames come from the programs' runs; nothing was rewritten on the way to the extended
  reals, so the idealization's side condition is empty.
-/
import proofs.«136085_j33285996544551_2_alg».proof.Defs
import proofs.«136085_j33285996544551_2_alg».proof.Proof.Gen.Kernel
import proofs.«136085_j33285996544551_2_alg».proof.Proof.Gen.Kernel.Skeleton
import proofs.«136085_j33285996544551_2_alg».proof.Proof.Gen.Kernel.Launch
import proofs.«136085_j33285996544551_2_alg».proof.Proof.Gen.Kernel.Points
import proofs.«136085_j33285996544551_2_alg».proof.Proof.Gen.Kernel.Frame
import proofs.«136085_j33285996544551_2_alg».proof.Proof.Gen.KernelIdeal
import proofs.«136085_j33285996544551_2_alg».proof.Proof.Gen.KernelIdeal.Skeleton
import proofs.«136085_j33285996544551_2_alg».proof.Proof.Gen.KernelIdeal.Launch
import proofs.«136085_j33285996544551_2_alg».proof.Proof.Gen.KernelIdeal.Points
import proofs.«136085_j33285996544551_2_alg».proof.Proof.Gen.KernelIdeal.Frame
import proofs.«136085_j33285996544551_2_alg».proof.Proof.Gen.KernelIdeal.Value
import proofs.«136085_j33285996544551_2_alg».proof.Proof.Gen.ReferenceIdeal
import proofs.«136085_j33285996544551_2_alg».proof.Proof.Gen.ReferenceIdeal.Run
import proofs.«136085_j33285996544551_2_alg».proof.Proof.Gen.ReferenceIdeal.Read
import proofs.«136085_j33285996544551_2_alg».proof.Proof.Gen.Pre_finite_inputs
import proofs.«136085_j33285996544551_2_alg».proof.Proof.KernelValue
import proofs.«136085_j33285996544551_2_alg».proof.Proof.RefDirect
import proofs.«136085_j33285996544551_2_alg».proof.Proof.Finite
import Idealize.ShloMosaic.Adequacy
import Idealize.ShloMosaic.Init

noncomputable section

namespace Cert.Proof.Claims

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- On the extended reals, from memories that agree on the three arguments, the kernel's result array ends at the
    expanded masked squared distance and the reference's at the direct one; the precondition makes the data and the
    assignment weights real numbers, and there the two writings are one function. -/
theorem algebraic : Cert.algebraic_KernelIdeal_ReferenceIdeal := by
  intro m ρ m' ρ' hpre hagree
  refine ⟨_, Cert.MaskedDist.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.MaskedDist.Ref.reference_eq_direct, (hagree c).1, (hagree c).2.1,
    (hagree c).2.2]
  obtain ⟨hX, hU⟩ := Cert.MaskedDist.Finite.real_inputs _ _ _ (hpre c)
  exact (Cert.MaskedDist.expanded_eq_direct _ _ _ hX hU).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
